-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x1048576 : Shape := ⟨3, ![16, 8, 1048576]⟩
abbrev S_ : Shape := ⟨0, ![]⟩

class Facts : Prop where
  bcast_S_S16x8x1048576 : S_.BroadcastsInDim S16x8x1048576 (![] : Fin 0 → Fin S16x8x1048576.rank)
  reducesTo_S16x8x1048576_S_d0_1_2 : S16x8x1048576.ReducesTo [0, 1, 2] S_
  h_S_ : 0 < S_.numel

variable [Facts]

def fn {F : FTy → Type} [FloatOps F] (main_arg0 : FVec F S16x8x1048576 .f32) : IVec S_ 1 :=
  let main_v0 : FVec F S16x8x1048576 .f32 := Host.absf main_arg0
  let main_cst : FVec F S_ .f32 := constant S_ .f32 0x7F800000#32
  let main_v1 : FVec F S16x8x1048576 .f32 := broadcastInDim S16x8x1048576 ![] bcast_S_S16x8x1048576 main_cst
  let main_v2 : IVec S16x8x1048576 1 := cmpf .olt main_v0 main_v1
  let main_c : IVec S_ 1 := constantI S_ 1 1#1
  let main_v3 : IVec S_ 1 := (fun x v => Host.reduce IntOp.andi x v reducesTo_S16x8x1048576_S_d0_1_2 h_S_) main_v2 main_c
  main_v3
-- ==== Kernel.lean ====
abbrev S16x8x1048576 : Shape := ⟨3, ![16, 8, 1048576]⟩
abbrev S16x8x16384 : Shape := ⟨3, ![16, 8, 16384]⟩
abbrev S2x16x16384 : Shape := ⟨3, ![2, 16, 16384]⟩
abbrev S2 : Shape := ⟨1, ![2]⟩
abbrev S1 : Shape := ⟨1, ![1]⟩
abbrev S_ : Shape := ⟨0, ![]⟩
abbrev S1x16x16384 : Shape := ⟨3, ![1, 16, 16384]⟩
abbrev S16x16384 : Shape := ⟨2, ![16, 16384]⟩
abbrev S16x1x16384 : Shape := ⟨3, ![16, 1, 16384]⟩
abbrev S16x7x16384 : Shape := ⟨3, ![16, 7, 16384]⟩

abbrev nBuf : Space → Nat
  | .hbm => 2
  | .vmem => 3
  | .smem => 0
  | _ => 0

abbrev bufTy : (tb : Table) → Fin (tcTables nBuf tb) → BufTy
  | .hbm, ⟨0, _⟩ => ⟨S16x8x1048576, .f32⟩
  | .hbm, ⟨1, _⟩ => ⟨S16x8x1048576, .f32⟩
  | .local _ .vmem, ⟨0, _⟩ => ⟨S16x8x16384, .f32⟩
  | .local _ .vmem, ⟨1, _⟩ => ⟨S16x8x16384, .f32⟩
  | .local _ .vmem, ⟨2, _⟩ => ⟨S2x16x16384, .f32⟩
  | _, _ => ⟨S16x8x1048576, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c16384_i32 : BitVec 32 := 16384#32
  let v13 : BitVec 32 := Scalar.muli arg0 c16384_i32
  v13
def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let c0_i32_7 : BitVec 32 := 0#32
  ![v9.toNat, 0, 0]
def k0_off3 (i : grid0.Coords) : Fin 3 → Nat :=
  let c0_i32_8 : BitVec 32 := 0#32
  let c0_i32_5 : BitVec 32 := 0#32
  let arg0 : BitVec 32 := BitVec.ofNat 32 (i 0).val
  let c16384_i32 : BitVec 32 := 16384#32
  let v13 : BitVec 32 := Scalar.muli arg0 c16384_i32
  let v14 : BitVec 32 := v13
  ![0, 0, v14.toNat]
def k0_cond2 (i : grid0.Coords) : BitVec 1 :=
  let arg0 : BitVec 32 := BitVec.ofNat 32 (i 0).val
  let c1_i32_9 : BitVec 32 := 1#32
  let v21 : BitVec 32 := Scalar.addi arg0 c1_i32_9
  let c64_i32 : BitVec 32 := 64#32
  let v22 : BitVec 1 := Scalar.cmpi .slt v21 c64_i32
  let v23 : BitVec 32 := Scalar.extui v22
  let c0_i32_10 : BitVec 32 := 0#32
  let v24 : BitVec 1 := Scalar.cmpi .ne v23 c0_i32_10
  v24

def k0_mult2 (i : grid0.Coords) : BitVec 32 :=
  let arg0 : BitVec 32 := BitVec.ofNat 32 (i 0).val
  let c1_i32_18 : BitVec 32 := 1#32
  let v33 : BitVec 32 := Scalar.addi arg0 c1_i32_18
  let c16384_i32_19 : BitVec 32 := 16384#32
  let v34 : BitVec 32 := Scalar.muli v33 c16384_i32_19
  v34
def k0_off4 (i : grid0.Coords) : Fin 1 → Nat :=
  let c1_i32_17 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_17 v9
  ![v32.toNat]
def k0_off5 (i : grid0.Coords) : Fin 3 → Nat :=
  let c1_i32_17 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_17 v9
  let c0_i32_21 : BitVec 32 := 0#32
  let c0_i32_22 : BitVec 32 := 0#32
  ![v32.toNat, 0, 0]
def k0_off6 (i : grid0.Coords) : Fin 3 → Nat :=
  let c0_i32_23 : BitVec 32 := 0#32
  let c0_i32_20 : BitVec 32 := 0#32
  let arg0 : BitVec 32 := BitVec.ofNat 32 (i 0).val
  let c1_i32_18 : BitVec 32 := 1#32
  let v33 : BitVec 32 := Scalar.addi arg0 c1_i32_18
  let c16384_i32_19 : BitVec 32 := 16384#32
  let v34 : BitVec 32 := Scalar.muli v33 c16384_i32_19
  let v35 : BitVec 32 := v34
  ![0, 0, v35.toNat]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : Index := Scalar.indexCast v9
  let c0 : Index := 0#32
  let c0_11 : Index := 0#32
  ![v25.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  inb_S2_S1_0 : ∀ a, (![0] : Fin 1 → Nat) a + S1.size a ≤ S2.size a
  squeezes_S1_S_ : S1.Squeezes S_
  inb_S2x16x16384_S1x16x16384_0_0_0 : ∀ a, (![0, 0, 0] : Fin 3 → Nat) a + S1x16x16384.size a ≤ S2x16x16384.size a
  squeezes_S1x16x16384_S16x16384 : S1x16x16384.Squeezes S16x16384
  inb_S16x8x1048576_S16x1x16384_0_0_0 : ∀ a, (![0, 0, 0] : Fin 3 → Nat) a + S16x1x16384.size a ≤ S16x8x1048576.size a
  squeezes_S16x1x16384_S16x16384 : S16x1x16384.Squeezes S16x16384
  h_S1x16x16384 : 0 < S1x16x16384.numel
  shapeCasts_S1x16x16384_S16x16384 : S1x16x16384.ShapeCasts S16x16384
  shapeCasts_S16x16384_S16x1x16384 : S16x16384.ShapeCasts S16x1x16384
  inb_S16x8x16384_S16x1x16384_0_0_0 : ∀ a, (![0, 0, 0] : Fin 3 → Nat) a + S16x1x16384.size a ≤ S16x8x16384.size a
  h_S16x1x16384 : 0 < S16x1x16384.numel
  inb_S16x8x16384_S16x7x16384_0_1_0 : ∀ a, (![0, 1, 0] : Fin 3 → Nat) a + S16x7x16384.size a ≤ S16x8x16384.size a
  h_S16x7x16384 : 0 < S16x7x16384.numel
  hcc0_scratch1 : 2 + S2.numel ≤ 4
  hrank0 : 0 < grid0.rank
  k0_mult1_dvd : ∀ i : grid0.Coords, 16384 ∣ (k0_mult1 i).toNat
  k0_off1_inb : ∀ i : grid0.Coords, ∀ a, (k0_off1 i) a + S1.size a ≤ S2.size a
  k0_off2_inb : ∀ i : grid0.Coords, ∀ a, (k0_off2 i) a + S1x16x16384.size a ≤ S2x16x16384.size a
  k0_off3_inb : ∀ i : grid0.Coords, ∀ a, (k0_off3 i) a + S16x1x16384.size a ≤ S16x8x1048576.size a
  k0_mult2_dvd : ∀ i : grid0.Coords, ∀ (k0_h2 : k0_cond2 i = 1#1), 16384 ∣ (k0_mult2 i).toNat
  k0_off4_inb : ∀ i : grid0.Coords, ∀ (k0_h2 : k0_cond2 i = 1#1), ∀ a, (k0_off4 i) a + S1.size a ≤ S2.size a
  k0_off5_inb : ∀ i : grid0.Coords, ∀ (k0_h2 : k0_cond2 i = 1#1), ∀ a, (k0_off5 i) a + S1x16x16384.size a ≤ S2x16x16384.size a
  k0_off6_inb : ∀ i : grid0.Coords, ∀ (k0_h2 : k0_cond2 i = 1#1), ∀ a, (k0_off6 i) a + S16x1x16384.size a ≤ S16x8x1048576.size a
  k0_off7_inb : ∀ i : grid0.Coords, ∀ a, (k0_off7 i) a + S1x16x16384.size a ≤ S2x16x16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S16x8x16384.size a ≤ S16x8x1048576.size a
  hwx0_0 : ∀ i : grid0.Coords, EltTy.bits .f32 = 32 ∨ (Rect.block (s := S16x8x1048576) S16x8x16384.size (cc0_transform_1 i) (hinb0_0 i)).WholeWords (EltTy.packing .f32)

variable [Facts₀]

abbrev cc0_scratch1 : DmaSems sig S2 := SemArray.consecutive 2 S2 hcc0_scratch1

abbrev win0_0 : Pipeline.Window sig grid0 :=
  Pipeline.Window.ofSpec (Memref.whole main_v0) S16x8x16384.size cc0_transform_1 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S16x8x1048576 : Shape := ⟨3, ![16, 8, 1048576]⟩
abbrev S8 : Shape := ⟨1, ![8]⟩
abbrev S_ : Shape := ⟨0, ![]⟩
abbrev S1x8x1 : Shape := ⟨3, ![1, 8, 1]⟩

abbrev nBuf : Space → Nat
  | .hbm => 9
  | .vmem => 0
  | .smem => 0
  | _ => 0

abbrev bufTy : (tb : Table) → Fin (tcTables nBuf tb) → BufTy
  | .hbm, ⟨0, _⟩ => ⟨S16x8x1048576, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i1⟩
  | .hbm, ⟨5, _⟩ => ⟨S8, .f32⟩
  | .hbm, ⟨6, _⟩ => ⟨S1x8x1, .f32⟩
  | .hbm, ⟨7, _⟩ => ⟨S16x8x1048576, .f32⟩
  | .hbm, ⟨8, _⟩ => ⟨S16x8x1048576, .f32⟩
  | _, _ => ⟨S16x8x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S1x8x1_S16x8x1048576_0_1_2 : S1x8x1.BroadcastsInDim S16x8x1048576 (![0, 1, 2] : Fin 3 → Fin S16x8x1048576.rank)

variable [Facts₀]

class Facts : Prop extends Facts₀ where

variable [Facts]
-- ==== Proof.KeepChannel.lean ====
/-
  The function both programs compute. Of an array x of shape [16, 8, 1048576] (batch, channel, sample)
  channel 0 is kept and channels 1..7 are set to zero:

      keep x (b, c, s) = x (b, 0, s)  if c = 0,      0  otherwise.

  The reference spells this as the product of x with the 0/1 mask [c = 0] broadcast along batch and
  sample. The one fact needed about that product is stated here on the extended reals: x · 1 = x and
  x · 0 = 0 hold for every extended real x (zero absorbs the infinities too), so no finiteness of x is
  used.
-/
import Idealize.ShloMosaic.PureOps.Ideal
import Idealize.ShloMosaic.PureOps.Ideal.Laws
import Idealize.ShloMosaic.Lib.ValueIdx

noncomputable section

namespace Cert.KeepChannel

open Idealize.ShloMosaic

/-- The shape of the argument and of the result: 16 batches, 8 channels, 1048576 samples. -/
abbrev A : Shape := ⟨3, ![16, 8, 1048576]⟩

/-- Channel 0 kept, every other channel zero. -/
def keep (x : A.Idx → EReal) : A.Idx → EReal := fun i => if (i 1).val = 0 then x i else 0

/-- The mask's bit at channel `k`: the 32-bit word of `k` equals the zero word exactly when `k = 0`. -/
theorem mask_bit : ∀ k : Fin 8, IntOp.cmpi .eq (BitVec.ofNat 32 k.val) 0#32 = if k.val = 0 then 1#1 else 0#1 := by
  decide

/-- An extended real times the mask's bit read as a number: itself on channel 0, zero elsewhere. -/
theorem mul_mask (x : EReal) (k : Fin 8) :
    x * (((IntOp.cmpi .eq (BitVec.ofNat 32 k.val) 0#32).toNat : ℝ) : EReal) = if k.val = 0 then x else 0 := by
  rw [mask_bit k]
  by_cases h : k.val = 0
  · rw [if_pos h, if_pos h]
    simp
  · rw [if_neg h, if_neg h]
    simp

end Cert.KeepChannel

end
-- ==== Proof.ChannelBlock.lean ====
/-
  What the kernel leaves in an output block. The grid has 64 points; point t fills the block of
  samples [16384·t, 16384·(t+1)) of the result, for all 16 batches and all 8 channels, with two stores:
  channel 0 receives the slab the body waited for — samples 16384·t … of channel 0 of the argument,
  copied into one of two scratch slots by a transfer started one point earlier (at point 0, by the
  point itself) — and channels 1..7 receive the zero word.

  So block t is the restriction of ONE function of the argument array W,

      kept W (b, c, s) = W (b, 0, s)  if c = 0,   the zero word otherwise,

  to the block's indices: `blockOf W t y = kept W (under t y)`, where `under t y` is the array index
  under the block's index y (the sample coordinate moved by 16384·t). This holds in each of the three
  cases of the body (first point, a middle point, last point), which differ only in which transfers
  they start, not in what they store. The slab's way through the scratch slot — a whole-slot landing read
  back at the slot's rectangle, between two changes of shape that cancel — is `pay_landed`.
-/
import proofs.«109258_j54365696033605_2_alg».proof.Proof.Gen.KernelIdeal.Frame
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-! ## The function of the whole argument array, and its restriction to a block -/

/-- Channel 0 kept, the other channels the zero word (at any float type). -/
def kept (W : S16x8x1048576.Idx → Elt F .f32) : S16x8x1048576.Idx → Elt F .f32 :=
  fun i => if (i 1).val = 0 then W i else FloatOps.ofBits .f32 0x00000000#32

theorem kept_of_eq (W : S16x8x1048576.Idx → Elt F .f32) (i : S16x8x1048576.Idx) (h : (i 1).val = 0) :
    kept W i = W i := if_pos h

theorem kept_of_ne (W : S16x8x1048576.Idx → Elt F .f32) (i : S16x8x1048576.Idx) (h : ¬(i 1).val = 0) :
    kept W i = FloatOps.ofBits .f32 0x00000000#32 := if_neg h

/-- The array index under index `y` of the `n`-th block of 16384 samples: same batch, same channel,
    sample `16384·n + y₂`. -/
def under (n : ℕ) (hn : n < 64) (y : S16x8x16384.Idx) : S16x8x1048576.Idx := fun a => match a with
  | ⟨0, _⟩ => ⟨(y 0).val, (y 0).isLt⟩
  | ⟨1, _⟩ => ⟨(y 1).val, (y 1).isLt⟩
  | ⟨2, _⟩ => ⟨16384 * n + (y 2).val, by
      have h : (y 2).val < 16384 := (y 2).isLt
      show 16384 * n + (y 2).val < 1048576
      omega⟩

/-- Block `n` of `kept W`. -/
def blockOf (W : S16x8x1048576.Idx → Elt F .f32) (n : ℕ) (hn : n < 64) : S16x8x16384.Idx → Elt F .f32 :=
  fun y => kept W (under n hn y)

/-! ## The two stores of a point, each a part of that block -/

/-- The store on channels 1..7 writes the zero word, which is `kept W` off channel 0. -/
theorem zeros_piece (W : S16x8x1048576.Idx → Elt F .f32) (n : ℕ) (hn : n < 64) (x : S16x7x16384.Idx) :
    k0_pay2 (F := F) x
      = blockOf W n hn ((Rect.unit (s := S16x8x16384) ![0, 1, 0] S16x7x16384.size inb_S16x8x16384_S16x7x16384_0_1_0).emb x) :=
  (kept_of_ne W _ (by show ¬(1 + 1 * (x 1).val = 0); omega)).symm

/-- The slab read from the argument at samples `16384·b …` of channel 0 is `kept W` on channel 0 of block `b`. -/
theorem slab_piece (c : Dev nD) (W : HbBuf0 (F := F) c hbM0_0) (n : ℕ) (hn : n < 64) (b : Fin 64) (hb : b.val = n)
    (x : S16x1x16384.Idx) :
    View.readAt (Elt F) hbM0_0.view
        (Rect.unit (s := S16x8x1048576) ![0, 0, 16384 * b.val] S16x1x16384.size (inb_src0_0 b)).toLoadRect W x
      = blockOf W n hn ((Rect.unit (s := S16x8x16384) ![0, 0, 0] S16x1x16384.size inb_S16x8x16384_S16x1x16384_0_0_0).emb x) := by
  have hx : (x 1).val < 1 := (x 1).isLt
  unfold blockOf
  rw [kept_of_eq W _ (by show 0 + 1 * (x 1).val = 0; omega)]
  show W _ = W _
  refine congrArg W (funext fun a => Fin.ext ?_)
  match a with
  | ⟨0, _⟩ => rfl
  | ⟨1, _⟩ => rfl
  | ⟨2, _⟩ => show 16384 * b.val + 1 * (x 2).val = 16384 * n + (0 + 1 * (x 2).val); omega

/-- THE SLAB'S WAY THROUGH THE SCRATCH. The body loads slot `s` of the scratch at the slot's rectangle, after a
    transfer landed block `b` of channel 0 whole in that slot; it views the loaded [1,16,16384] value as [16,16384] and
    then as [16,1,16384]. The first view is what the slot, itself a [16,16384] view of that rectangle, reads: the landed
    block. The landed block is the [16,16384] view of the [16,1,16384] slab of the argument; the second view undoes that.
    So what is stored on channel 0 is the slab of the argument itself. -/
theorem pay_landed (c : Dev nD) (W : HbBuf0 (F := F) c hbM0_0) (s : Fin 2) (b : Fin 64) (off : Fin 3 → Nat)
    (inb : ∀ a, off a + S1x16x16384.size a ≤ S2x16x16384.size a) (hoff : off = ![s.val, 0, 0]) :
    k0_pay1 (View.readAt (Elt F) scM0_0.view (Rect.unit (s := S2x16x16384) off S1x16x16384.size inb).toLoadRect
        ((rslot0_0 s).view.writes (Elt F) (rslot0_0 s).view.junk
          [⟨Rect.whole S16x16384, ReadAs.same.apply (View.read (Elt F) (srcB0_0 b).view W)⟩]))
      = View.readAt (Elt F) hbM0_0.view
          (Rect.unit (s := S16x8x1048576) ![0, 0, 16384 * b.val] S16x1x16384.size (inb_src0_0 b)).toLoadRect W := by
  subst hoff
  unfold k0_pay1
  dsimp only
  have e := View.read_writes_whole (rslot0_0 s).view ((rslot0_0 s).view.junk (Val := Elt F))
    (ReadAs.same.apply (View.read (Elt F) (srcB0_0 b).view W))
  refine (congrArg (fun v => shapeCast S16x1x16384 v shapeCasts_S16x16384_S16x1x16384) e).trans ?_
  have hc : S16x1x16384.ShapeCasts S16x16384 := by decide
  show shapeCast S16x1x16384 (shapeCast S16x16384 (View.readAt (Elt F) hbM0_0.view
      (Rect.unit (s := S16x8x1048576) ![0, 0, 16384 * b.val] S16x1x16384.size (inb_src0_0 b)).toLoadRect W) hc)
    shapeCasts_S16x16384_S16x1x16384 = _
  exact shapeCast_shapeCast _ _ _

/-! ## A block's two pieces make the block -/

/-- Two pieces — channels 1..7 and channel 0 — each a part of `blockOf W n`, cover the block and leave it. -/
theorem block_canon (W : S16x8x1048576.Idx → Elt F .f32) (n : ℕ) (hn : n < 64)
    (z : S16x7x16384.Idx → Elt F .f32) (w : S16x1x16384.Idx → Elt F .f32)
    (hz : ∀ x, z x = blockOf W n hn ((Rect.unit (s := S16x8x16384) ![0, 1, 0] S16x7x16384.size inb_S16x8x16384_S16x7x16384_0_1_0).emb x))
    (hw : ∀ x, w x = blockOf W n hn ((Rect.unit (s := S16x8x16384) ![0, 0, 0] S16x1x16384.size inb_S16x8x16384_S16x1x16384_0_0_0).emb x)) :
    View.canon [(⟨Rect.unit (s := S16x8x16384) ![0, 1, 0] S16x7x16384.size inb_S16x8x16384_S16x7x16384_0_1_0, z⟩ : View.Piece (Elt F) S16x8x16384 .f32),
        ⟨Rect.unit (s := S16x8x16384) ![0, 0, 0] S16x1x16384.size inb_S16x8x16384_S16x1x16384_0_0_0, w⟩]
      = blockOf W n hn := by
  funext y
  have h0 : (y 0).val < 16 := (y 0).isLt
  have h1 : (y 1).val < 8 := (y 1).isLt
  have h2 : (y 2).val < 16384 := (y 2).isLt
  refine View.canon_apply_of_pieces (blockOf W n hn) _ ?_ y ?_
  · intro p hp x
    rcases List.mem_cons.mp hp with rfl | hp
    · exact hz x
    · rcases List.mem_singleton.mp hp with rfl
      exact hw x
  · by_cases h : (y 1).val = 0
    · refine ⟨_, List.mem_cons_of_mem _ (List.mem_singleton_self _), ?_⟩
      rw [Rect.mem_set_unit]
      intro a
      match a with
      | ⟨0, _⟩ => show 0 ≤ (y 0).val ∧ (y 0).val < 0 + 16; omega
      | ⟨1, _⟩ => show 0 ≤ (y 1).val ∧ (y 1).val < 0 + 1; omega
      | ⟨2, _⟩ => show 0 ≤ (y 2).val ∧ (y 2).val < 0 + 16384; omega
    · refine ⟨_, List.mem_cons_self, ?_⟩
      rw [Rect.mem_set_unit]
      intro a
      match a with
      | ⟨0, _⟩ => show 0 ≤ (y 0).val ∧ (y 0).val < 0 + 16; omega
      | ⟨1, _⟩ => show 1 ≤ (y 1).val ∧ (y 1).val < 1 + 7; omega
      | ⟨2, _⟩ => show 0 ≤ (y 2).val ∧ (y 2).val < 0 + 16384; omega

end Cert.KernelIdeal.Block

end
-- ==== Proof.ChannelCases.lean ====
/-
  The body's three cases store the same block. At its first point the body starts the transfer of block 0
  itself, at a middle point it waits for the block started one point earlier and starts the next, at the last
  point it only waits; in each case the two stores it then makes are the zero word on channels 1..7 and, on
  channel 0, the block it waited for — block t at point t. So after point t the output's staging buffer holds
  block t of `kept W` (ChannelBlock.lean), W the argument array as launched: the stores found by each
  case's run are read back as that one function, and the point-by-point account of the output follows by
  cases on the point.
-/
import proofs.«109258_j54365696033605_2_alg».proof.Proof.ChannelBlock

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The grid has 64 points. -/
theorem lt_points (t : Fin cfg0.N) : t.val < 64 := lt_of_lt_of_eq t.isLt (show cfg0.N = 64 from N_0)

section Cases
variable (c : Dev nD) (t : Fin cfg0.N) (a2 : Memref sig .tc .vmem S16x8x16384 .f32) (h2 : a2.IsWhole)
  (W : HbBuf0 (F := F) c hbM0_0)

/-- The first point: block 0, which the point itself started and waited for. -/
theorem out_first (hc0 : cond0_0 (grid0.coords t)) (hc1 : cond0_1 (grid0.coords t)) :
    out0_A_0 c t a2 h2 hc0 hc1 W = blockOf W t.val (lt_points t) := by
  unfold out0_A_0
  rw [View.read_writes_eq_canon _ _ _ (cover0_A_0 c t a2 h2 hc0 hc1 W)]
  unfold kernelRun0_A
  dsimp only
  sl_unfold_words
  refine block_canon W t.val (lt_points t) _ _ (fun x => zeros_piece W t.val (lt_points t) x) (fun x => ?_)
  refine (congrFun (pay_landed c W _ _ _ _ (coff0_0_10 t)) x).trans ?_
  exact slab_piece c W t.val (lt_points t) (Ring.bk 64 t.val) (Ring.bk_val (lt_points t)) x

/-- A middle point: the block started one point earlier, now landed. -/
theorem out_middle (hc0 : ¬cond0_0 (grid0.coords t)) (hc1 : cond0_1 (grid0.coords t)) :
    out0_B_0 c t a2 h2 hc0 hc1 W = blockOf W t.val (lt_points t) := by
  unfold out0_B_0
  rw [View.read_writes_eq_canon _ _ _ (cover0_B_0 c t a2 h2 hc0 hc1 W)]
  unfold kernelRun0_B
  dsimp only
  sl_unfold_words
  refine block_canon W t.val (lt_points t) _ _ (fun x => zeros_piece W t.val (lt_points t) x) (fun x => ?_)
  refine (congrFun (pay_landed c W _ _ _ _ (coff0_0_10 t)) x).trans ?_
  exact slab_piece c W t.val (lt_points t) (Ring.bk 64 t.val) (Ring.bk_val (lt_points t)) x

/-- The last point: the same, with nothing left to start. -/
theorem out_last (hc0 : ¬cond0_0 (grid0.coords t)) (hc1 : ¬cond0_1 (grid0.coords t)) :
    out0_C_0 c t a2 h2 hc0 hc1 W = blockOf W t.val (lt_points t) := by
  unfold out0_C_0
  rw [View.read_writes_eq_canon _ _ _ (cover0_C_0 c t a2 h2 hc0 hc1 W)]
  unfold kernelRun0_C
  dsimp only
  sl_unfold_words
  refine block_canon W t.val (lt_points t) _ _ (fun x => zeros_piece W t.val (lt_points t) x) (fun x => ?_)
  refine (congrFun (pay_landed c W _ _ _ _ (coff0_0_10 t)) x).trans ?_
  exact slab_piece c W t.val (lt_points t) (Ring.bk 64 t.val) (Ring.bk_val (lt_points t)) x

end Cases

/-- After point `t` the output's staging buffer holds block `t` of `kept` of the argument as launched. -/
theorem outsAt_eq (c : Dev nD) (t : Fin cfg0.N) :
    outsAt0 m c t.val t.isLt = blockOf (V m c main_arg0) t.val (lt_points t) := by
  have hN := lt_points t
  by_cases h0 : t.val % 64 = 0
  · by_cases h1 : t.val < 63
    · rw [outsAt0_A m c t h0 h1]; exact out_first c t _ _ _ _ _
    · exfalso; omega
  · by_cases h1 : t.val < 63
    · rw [outsAt0_B m c t h0 h1]; exact out_middle c t _ _ _ _ _
    · rw [outsAt0_C m c t h0 h1]; exact out_last c t _ _ _ _ _

end Cert.KernelIdeal.Block

end
-- ==== Proof.ChannelArray.lean ====
/-
  From blocks to the array. Point t writes its block back to samples [16384·t, 16384·(t+1)) of the result, all
  batches and channels; what it writes is block t of `kept W` (ChannelCases.lean), W the argument as
  launched, and "block t" read through the output window is the same restriction: the window's index map is
  (0, 0, t). The 64 blocks cover the sample axis (sample s lies in block s / 16384), so the result array after
  the run is `kept W` whole.
-/
import proofs.«109258_j54365696033605_2_alg».proof.Proof.ChannelCases
import proofs.«109258_j54365696033605_2_alg».proof.Proof.Gen.KernelIdeal.Value

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The output window's block index at point `t` is (0, 0, t) — decided over the 64 points. -/
theorem block_index : ∀ t : Fin cfg0.N, win0_0.index t (0 : Fin 3) = 0 ∧ win0_0.index t (1 : Fin 3) = 0
    ∧ win0_0.index t (2 : Fin 3) = t.val :=
  (by decide +kernel : ∀ t : Fin grid0.N, win0_0.index t (0 : Fin 3) = 0 ∧ win0_0.index t (1 : Fin 3) = 0
    ∧ win0_0.index t (2 : Fin 3) = t.val)

/-- What point `t` writes back is block `t` of `kept` of the argument, read through the output window. -/
theorem flushed_eq (c : Dev nD) (t : Fin cfg0.N) :
    (dats m 0 c).flushed 0 t = ((cfg0.win 0).blk t).view.read (Elt F) (kept (V m c main_arg0)) := by
  rw [Cert.KernelIdeal.Value.flushed0, outsAt_eq]
  obtain ⟨e0, e1, e2⟩ := block_index t
  funext j
  show kept (V m c main_arg0) (under t.val (lt_points t) ((cfg0.win 0).xinj (grid0.coords t) j))
    = kept (V m c main_arg0) (((cfg0.win 0).blk t).view.emb j)
  refine congrArg _ (funext fun a => Fin.ext ?_)
  match a with
  | ⟨0, _⟩ => show (j 0).val = win0_0.index t (0 : Fin 3) * 16 + 1 * (j 0).val; omega
  | ⟨1, _⟩ => show (j 1).val = win0_0.index t (1 : Fin 3) * 8 + 1 * (j 1).val; omega
  | ⟨2, _⟩ => show 16384 * t.val + (j 2).val = win0_0.index t (2 : Fin 3) * 16384 + 1 * (j 2).val; omega

/-- An index of the array lies in point `t`'s block iff each coordinate lies in the block's range on its axis. -/
theorem mem_blk (t : Fin cfg0.N) (i : S16x8x1048576.Idx) :
    i ∈ ((cfg0.win 0).blk t).view.set ↔ ∀ a : Fin 3, win0_0.index t a * S16x8x16384.size a ≤ (i a).val
      ∧ (i a).val < win0_0.index t a * S16x8x16384.size a + S16x8x16384.size a := by
  show i ∈ ((View.whole main_v0).slice (win0_0.rect t)).set ↔ _
  rw [View.set_slice_whole, Rect.mem_set_unit]
  exact Iff.rfl

/-- Every index of the array lies in the block of the point its sample coordinate names. -/
theorem cover (i : S16x8x1048576.Idx) :
    ∃ t : Fin cfg0.N, (cfg0.win 0).flush t = true ∧ i ∈ ((cfg0.win 0).blk t).view.set := by
  have h0 : (i 0).val < 16 := (i 0).isLt
  have h1 : (i 1).val < 8 := (i 1).isLt
  have h2 : (i 2).val < 1048576 := (i 2).isLt
  have hN : cfg0.N = 64 := N_0
  have hq : (i 2).val / 16384 < cfg0.N := by omega
  refine ⟨⟨(i 2).val / 16384, hq⟩, flush0_0 _, ?_⟩
  rw [mem_blk]
  obtain ⟨e0, e1, e2⟩ := block_index ⟨(i 2).val / 16384, hq⟩
  have e2' : win0_0.index ⟨(i 2).val / 16384, hq⟩ (2 : Fin 3) = (i 2).val / 16384 := e2
  intro a
  match a with
  | ⟨0, _⟩ =>
    show win0_0.index ⟨(i 2).val / 16384, hq⟩ (0 : Fin 3) * 16 ≤ (i 0).val
      ∧ (i 0).val < win0_0.index ⟨(i 2).val / 16384, hq⟩ (0 : Fin 3) * 16 + 16
    omega
  | ⟨1, _⟩ =>
    show win0_0.index ⟨(i 2).val / 16384, hq⟩ (1 : Fin 3) * 8 ≤ (i 1).val
      ∧ (i 1).val < win0_0.index ⟨(i 2).val / 16384, hq⟩ (1 : Fin 3) * 8 + 8
    omega
  | ⟨2, _⟩ =>
    show win0_0.index ⟨(i 2).val / 16384, hq⟩ (2 : Fin 3) * 16384 ≤ (i 2).val
      ∧ (i 2).val < win0_0.index ⟨(i 2).val / 16384, hq⟩ (2 : Fin 3) * 16384 + 16384
    omega

/-- The result array after the run: channel 0 of the argument as launched, the zero word elsewhere. -/
theorem final (c : Dev nD) : (dats m 0 c).arrAt 0 cfg0.N = kept (V m c main_arg0) :=
  (dats m 0 c).arrAt_eq_of_cover 0 (kept (V m c main_arg0)) (fun t _ => flushed_eq m c t) cover

/-- The kernel's run, read: the result array at `kept` of the argument, the argument unchanged. -/
theorem run : θ_run defs (onTc (τ := τ) (main (F := F))) ⟨m, fun _ => 0, ρ⟩ fun r => ∀ c : Dev nD,
      r.2.mem ((c : Thread nD τ).loc main_v0) = kept (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Block

end
-- ==== Proof.MaskedReference.lean ====
/-
  The reference: x times the mask [c = 0]. The mask is built on the channel axis alone — the channel numbers
  0..7 compared with 0, the bit read as the number 1 or 0 — and broadcast along batch and sample, so the
  factor at (b, c, s) depends on c only. The product at (b, c, s) is therefore x(b, c, s) · 1 on channel 0 and
  x(b, c, s) · 0 elsewhere: `keep x` (KeepChannel.lean), on all extended reals.
-/
import proofs.«109258_j54365696033605_2_alg».proof.Proof.Gen.ReferenceIdeal.Read
import proofs.«109258_j54365696033605_2_alg».proof.Proof.KeepChannel

noncomputable section

namespace Cert.ReferenceIdeal.Masked

open Cert.ReferenceIdeal Cert.ReferenceIdeal.Gen Cert.ReferenceIdeal.Read Idealize.ShloMosaic

/-- The reference's result, index by index: the broadcasts read the mask at the index's channel, the mask there is the
    bit of "channel = 0", and the product with that bit keeps channel 0 and zeroes the rest. -/
theorem product_eq_keep (x : S16x8x1048576.Idx → Ideal .f32) :
    val_main_v6 (F := Ideal) x = Cert.KeepChannel.keep x := by
  funext i
  rw [val_main_v6_apply, val_main_v5_apply, val_main_v4_apply, val_main_v3_apply, val_main_v2_apply,
    val_main_v0_apply, val_main_v1_apply, val_main_c_apply]
  exact Cert.KeepChannel.mul_mask (x i) (i 1)

end Cert.ReferenceIdeal.Masked

end
-- ==== Proof.lean ====
/-
  The kernel against its reference: keep channel 0 of x : [16, 8, 1048576], zero channels 1..7.

  The kernel never reads channels 1..7: it streams channel 0 through two scratch slots, 16384 samples at a
  time, one block ahead of the 64-point grid, and at point t stores that block on channel 0 of output block t
  and the zero word on the other seven channels. The reference multiplies x by the mask [channel = 0].
  Both results are `keep x` (Proof/KeepChannel.lean):

    the kernel     Proof/ChannelBlock.lean   one point's two stores are a block of `kept W`;
                   Proof/ChannelCases.lean   so in each of the body's three cases, hence at every point;
                   Proof/ChannelArray.lean   the 64 blocks cover the array: the result is `kept W` whole;
                   below                     at the extended reals the zero word is 0: `kept W = keep W`.
    the reference  Proof/MaskedReference.lean   x · [c = 0] = keep x, since e · 1 = e and e · 0 = 0 for every
                                                extended real e (no finiteness of x is used).

  The three frames are the generated ones (the reference's is its generated run with the result dropped);
  the idealization rewrote nothing, so there is nothing to preserve.
-/
import proofs.«109258_j54365696033605_2_alg».proof.Defs
import proofs.«109258_j54365696033605_2_alg».proof.Proof.Gen.Kernel
import proofs.«109258_j54365696033605_2_alg».proof.Proof.Gen.Kernel.Skeleton
import proofs.«109258_j54365696033605_2_alg».proof.Proof.Gen.Kernel.Launch
import proofs.«109258_j54365696033605_2_alg».proof.Proof.Gen.Kernel.Points
import proofs.«109258_j54365696033605_2_alg».proof.Proof.Gen.Kernel.Frame
import proofs.«109258_j54365696033605_2_alg».proof.Proof.Gen.KernelIdeal
import proofs.«109258_j54365696033605_2_alg».proof.Proof.Gen.KernelIdeal.Skeleton
import proofs.«109258_j54365696033605_2_alg».proof.Proof.Gen.KernelIdeal.Launch
import proofs.«109258_j54365696033605_2_alg».proof.Proof.Gen.KernelIdeal.Points
import proofs.«109258_j54365696033605_2_alg».proof.Proof.Gen.KernelIdeal.Frame
import proofs.«109258_j54365696033605_2_alg».proof.Proof.Gen.ReferenceIdeal
import proofs.«109258_j54365696033605_2_alg».proof.Proof.Gen.Pre_finite_inputs
import proofs.«109258_j54365696033605_2_alg».proof.Proof.Gen.KernelIdeal.Value
import proofs.«109258_j54365696033605_2_alg».proof.Proof.Gen.ReferenceIdeal.Run
import proofs.«109258_j54365696033605_2_alg».proof.Proof.Gen.ReferenceIdeal.Read
import proofs.«109258_j54365696033605_2_alg».proof.Proof.KeepChannel
import proofs.«109258_j54365696033605_2_alg».proof.Proof.ChannelArray
import proofs.«109258_j54365696033605_2_alg».proof.Proof.MaskedReference
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem

/-- At the extended reals the zero word is the number 0, so the kernel's `kept` is `keep`. -/
theorem kept_eq_keep (W : Cert.KernelIdeal.S16x8x1048576.Idx → Ideal .f32) :
    Cert.KernelIdeal.Block.kept (F := Ideal) W = Cert.KeepChannel.keep W := by
  funext i
  unfold Cert.KernelIdeal.Block.kept Cert.KeepChannel.keep
  rw [Ideal.ofBits_def, Ideal.ofBits_zero_f32]

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `keep` of the argument: the kernel by its blocks, the reference by its masked product, the
    arguments agreeing. -/
theorem algebraic : Cert.algebraic_KernelIdeal_ReferenceIdeal := by
  intro m ρ m' ρ' _ hagree
  refine ⟨fun c => Cert.KeepChannel.keep (m ((c.tc : Thread Cert.KernelIdeal.nD Cert.KernelIdeal.τ).loc Cert.KernelIdeal.main_arg0)), ?_, ?_⟩
  · exact (θ_run Cert.KernelIdeal.defs _ _).mono (fun _ h c => ⟨(h c).1.trans (kept_eq_keep _), (h c).2⟩)
      (Cert.KernelIdeal.Block.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v6_eq, Cert.ReferenceIdeal.Masked.product_eq_keep, hagree c]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
